-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000 : Shape := ⟨1, ![50000]⟩
abbrev S1048576 : Shape := ⟨1, ![1048576]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg14 : FVec F S256x256 .f32) (main_arg15 : FVec F S256 .f32) (main_v33 : IVec S_ 1) : IVec S_ 1 :=
  let main_v34 : FVec F S256x256 .f32 := Host.absf main_arg14
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg15
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg11 : FVec F S256 .f32) (main_arg12 : FVec F S256x256 .f32) (main_arg13 : FVec F S256 .f32) (main_arg14 : FVec F S256x256 .f32) (main_arg15 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg11
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg12
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg13
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg14 main_arg15 main_v33

def fn {F : FTy → Type} [FloatOps F] (main_arg0 : FVec F S100000x256 .f32) (main_arg1 : FVec F S100000x256 .f32) (main_arg2 : IVec S50000 32) (main_arg3 : IVec S1048576 32) (main_arg4 : IVec S1048576 32) (main_arg5 : IVec S1048576 32) (main_arg6 : IVec S1048576 32) (main_arg7 : IVec S1048576 32) (main_arg8 : IVec S1048576 32) (main_arg9 : FVec F S1048576 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S1048576 .f32 := Host.absf main_arg9
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  let main_v14 : FVec F S256x256 .f32 := Host.absf main_arg10
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg11 main_arg12 main_arg13 main_arg14 main_arg15 main_v13 main_v16
-- ==== Kernel.lean ====
abbrev S100000x256 : Shape := ⟨2, ![100000, 256]⟩
abbrev S50000 : Shape := ⟨1, ![50000]⟩
abbrev S1048576 : Shape := ⟨1, ![1048576]⟩
abbrev S256x256 : Shape := ⟨2, ![256, 256]⟩
abbrev S256 : Shape := ⟨1, ![256]⟩
abbrev S1x256 : Shape := ⟨2, ![1, 256]⟩
abbrev S5000x256 : Shape := ⟨2, ![5000, 256]⟩
abbrev S_ : Shape := ⟨0, ![]⟩
abbrev S1048576x1 : Shape := ⟨2, ![1048576, 1]⟩
abbrev S1048576x256 : Shape := ⟨2, ![1048576, 256]⟩
abbrev S50000x256 : Shape := ⟨2, ![50000, 256]⟩
abbrev S50000x1 : Shape := ⟨2, ![50000, 1]⟩
abbrev S2000x256 : Shape := ⟨2, ![2000, 256]⟩
abbrev S2000x1 : Shape := ⟨2, ![2000, 1]⟩

abbrev nBuf : Space → Nat
  | .hbm => 51
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S50000, .i32⟩
  | .hbm, ⟨3, _⟩ => ⟨S1048576, .i32⟩
  | .hbm, ⟨4, _⟩ => ⟨S1048576, .i32⟩
  | .hbm, ⟨5, _⟩ => ⟨S1048576, .i32⟩
  | .hbm, ⟨6, _⟩ => ⟨S1048576, .i32⟩
  | .hbm, ⟨7, _⟩ => ⟨S1048576, .i32⟩
  | .hbm, ⟨8, _⟩ => ⟨S1048576, .i32⟩
  | .hbm, ⟨9, _⟩ => ⟨S1048576, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S1x256, .f32⟩
  | .hbm, ⟨17, _⟩ => ⟨S100000x256, .f32⟩
  | .hbm, ⟨18, _⟩ => ⟨S_, .f32⟩
  | .hbm, ⟨19, _⟩ => ⟨S50000, .f32⟩
  | .hbm, ⟨20, _⟩ => ⟨S1048576x1, .i32⟩
  | .hbm, ⟨21, _⟩ => ⟨S50000, .f32⟩
  | .hbm, ⟨22, _⟩ => ⟨S_, .i32⟩
  | .hbm, ⟨23, _⟩ => ⟨S1048576, .i32⟩
  | .hbm, ⟨24, _⟩ => ⟨S1048576, .i1⟩
  | .hbm, ⟨25, _⟩ => ⟨S_, .i32⟩
  | .hbm, ⟨26, _⟩ => ⟨S1048576, .i32⟩
  | .hbm, ⟨27, _⟩ => ⟨S1048576, .i32⟩
  | .hbm, ⟨28, _⟩ => ⟨S1048576, .i32⟩
  | .hbm, ⟨29, _⟩ => ⟨S1048576x1, .i32⟩
  | .hbm, ⟨30, _⟩ => ⟨S1048576x256, .f32⟩
  | .hbm, ⟨31, _⟩ => ⟨S1048576x1, .f32⟩
  | .hbm, ⟨32, _⟩ => ⟨S1048576x256, .f32⟩
  | .hbm, ⟨33, _⟩ => ⟨S1048576x256, .f32⟩
  | .hbm, ⟨34, _⟩ => ⟨S_, .f32⟩
  | .hbm, ⟨35, _⟩ => ⟨S50000x256, .f32⟩
  | .hbm, ⟨36, _⟩ => ⟨S1048576x1, .i32⟩
  | .hbm, ⟨37, _⟩ => ⟨S50000x256, .f32⟩
  | .hbm, ⟨38, _⟩ => ⟨S_, .i32⟩
  | .hbm, ⟨39, _⟩ => ⟨S50000, .i32⟩
  | .hbm, ⟨40, _⟩ => ⟨S50000, .i1⟩
  | .hbm, ⟨41, _⟩ => ⟨S_, .i32⟩
  | .hbm, ⟨42, _⟩ => ⟨S50000, .i32⟩
  | .hbm, ⟨43, _⟩ => ⟨S50000, .i32⟩
  | .hbm, ⟨44, _⟩ => ⟨S50000, .i32⟩
  | .hbm, ⟨45, _⟩ => ⟨S50000x1, .i32⟩
  | .hbm, ⟨46, _⟩ => ⟨S50000x256, .f32⟩
  | .hbm, ⟨47, _⟩ => ⟨S1x256, .f32⟩
  | .hbm, ⟨48, _⟩ => ⟨S1x256, .f32⟩
  | .hbm, ⟨49, _⟩ => ⟨S50000x1, .f32⟩
  | .hbm, ⟨50, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S2000x1, .f32⟩
  | .local _ .vmem, ⟨13, _⟩ => ⟨S2000x1, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S_S50000 : S_.BroadcastsInDim S50000 (![] : Fin 0 → Fin S50000.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x256_0_1 : S1048576x1.BroadcastsInDim S1048576x256 (![0, 1] : Fin 2 → Fin S1048576x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  dot_S5000x256_S256x256_S5000x256_1_0_0_1_n_n_wf : DotDims.WF S5000x256 S256x256 S5000x256 [1] [0] [0] [1] [] []
  scatter_S50000_S1048576x1_S1048576_n_0_0_1_wf : ScatterDims.WF S50000 S1048576x1 S1048576 [] [0] [0] 1
  gather_S100000x256_S1048576x1_S1048576x256_1_0_n_n_0_1_1256_wf : GatherDims.WF S100000x256 S1048576x1 S1048576x256 [1] [0] [] [0] [] 1 ![1, 256]
  scatter_S50000x256_S1048576x1_S1048576x256_1_0_0_1_wf : ScatterDims.WF S50000x256 S1048576x1 S1048576x256 [1] [0] [0] 1
  gather_S100000x256_S50000x1_S50000x256_1_0_n_n_0_1_1256_wf : GatherDims.WF S100000x256 S50000x1 S50000x256 [1] [0] [] [0] [] 1 ![1, 256]
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S100000x256.size a
  hwx0_3 : ∀ i : grid0.Coords, EltTy.bits .f32 = 32 ∨ (Rect.block (s := S100000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S50000x1.size a
  hwx1_5 : ∀ i : grid1.Coords, EltTy.bits .f32 = 32 ∨ (Rect.block (s := S50000x1) S2000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000_S1048576x1_S1048576_n_0_0_1 : ScatterDims S50000 S1048576x1 S1048576 where
  updateWindowDims := []
  insertedWindowDims := [0]
  scatterDimsToOperandDims := [0]
  indexVectorDim := 1
  wf := scatter_S50000_S1048576x1_S1048576_n_0_0_1_wf
def gather_S100000x256_S1048576x1_S1048576x256_1_0_n_n_0_1_1256 : GatherDims S100000x256 S1048576x1 S1048576x256 where
  offsetDims := [1]
  collapsedSliceDims := [0]
  operandBatchingDims := []
  startIndicesBatchingDims := []
  startIndexMap := [0]
  indexVectorDim := 1
  sliceSizes := ![1, 256]
  wf := gather_S100000x256_S1048576x1_S1048576x256_1_0_n_n_0_1_1256_wf
def scatter_S50000x256_S1048576x1_S1048576x256_1_0_0_1 : ScatterDims S50000x256 S1048576x1 S1048576x256 where
  updateWindowDims := [1]
  insertedWindowDims := [0]
  scatterDimsToOperandDims := [0]
  indexVectorDim := 1
  wf := scatter_S50000x256_S1048576x1_S1048576x256_1_0_0_1_wf
def gather_S100000x256_S50000x1_S50000x256_1_0_n_n_0_1_1256 : GatherDims S100000x256 S50000x1 S50000x256 where
  offsetDims := [1]
  collapsedSliceDims := [0]
  operandBatchingDims := []
  startIndicesBatchingDims := []
  startIndexMap := [0]
  indexVectorDim := 1
  sliceSizes := ![1, 256]
  wf := gather_S100000x256_S50000x1_S50000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v17) S2000x256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v28) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x256 : Shape := ⟨2, ![100000, 256]⟩
abbrev S50000 : Shape := ⟨1, ![50000]⟩
abbrev S1048576 : Shape := ⟨1, ![1048576]⟩
abbrev S256x256 : Shape := ⟨2, ![256, 256]⟩
abbrev S256 : Shape := ⟨1, ![256]⟩
abbrev S1x256 : Shape := ⟨2, ![1, 256]⟩
abbrev S_ : Shape := ⟨0, ![]⟩
abbrev S1048576x1 : Shape := ⟨2, ![1048576, 1]⟩
abbrev S1048576x256 : Shape := ⟨2, ![1048576, 256]⟩
abbrev S50000x256 : Shape := ⟨2, ![50000, 256]⟩
abbrev S50000x1 : Shape := ⟨2, ![50000, 1]⟩

abbrev nBuf : Space → Nat
  | .hbm => 62
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S50000, .i32⟩
  | .hbm, ⟨3, _⟩ => ⟨S1048576, .i32⟩
  | .hbm, ⟨4, _⟩ => ⟨S1048576, .i32⟩
  | .hbm, ⟨5, _⟩ => ⟨S1048576, .i32⟩
  | .hbm, ⟨6, _⟩ => ⟨S1048576, .i32⟩
  | .hbm, ⟨7, _⟩ => ⟨S1048576, .i32⟩
  | .hbm, ⟨8, _⟩ => ⟨S1048576, .i32⟩
  | .hbm, ⟨9, _⟩ => ⟨S1048576, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S100000x256, .f32⟩
  | .hbm, ⟨17, _⟩ => ⟨S1x256, .f32⟩
  | .hbm, ⟨18, _⟩ => ⟨S100000x256, .f32⟩
  | .hbm, ⟨19, _⟩ => ⟨S100000x256, .f32⟩
  | .hbm, ⟨20, _⟩ => ⟨S_, .f32⟩
  | .hbm, ⟨21, _⟩ => ⟨S50000, .f32⟩
  | .hbm, ⟨22, _⟩ => ⟨S1048576x1, .i32⟩
  | .hbm, ⟨23, _⟩ => ⟨S50000, .f32⟩
  | .hbm, ⟨24, _⟩ => ⟨S1048576x1, .f32⟩
  | .hbm, ⟨25, _⟩ => ⟨S_, .i32⟩
  | .hbm, ⟨26, _⟩ => ⟨S1048576, .i32⟩
  | .hbm, ⟨27, _⟩ => ⟨S1048576, .i1⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S1048576, .i32⟩
  | .hbm, ⟨32, _⟩ => ⟨S1048576x1, .i32⟩
  | .hbm, ⟨33, _⟩ => ⟨S1048576x256, .f32⟩
  | .hbm, ⟨34, _⟩ => ⟨S1048576x256, .f32⟩
  | .hbm, ⟨35, _⟩ => ⟨S1048576x256, .f32⟩
  | .hbm, ⟨36, _⟩ => ⟨S_, .f32⟩
  | .hbm, ⟨37, _⟩ => ⟨S50000x256, .f32⟩
  | .hbm, ⟨38, _⟩ => ⟨S1048576x1, .i32⟩
  | .hbm, ⟨39, _⟩ => ⟨S50000x256, .f32⟩
  | .hbm, ⟨40, _⟩ => ⟨S_, .i32⟩
  | .hbm, ⟨41, _⟩ => ⟨S50000, .i32⟩
  | .hbm, ⟨42, _⟩ => ⟨S50000, .i1⟩
  | .hbm, ⟨43, _⟩ => ⟨S_, .i32⟩
  | .hbm, ⟨44, _⟩ => ⟨S50000, .i32⟩
  | .hbm, ⟨45, _⟩ => ⟨S50000, .i32⟩
  | .hbm, ⟨46, _⟩ => ⟨S50000, .i32⟩
  | .hbm, ⟨47, _⟩ => ⟨S50000x1, .i32⟩
  | .hbm, ⟨48, _⟩ => ⟨S50000x256, .f32⟩
  | .hbm, ⟨49, _⟩ => ⟨S50000x1, .f32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x256, .f32⟩
  | .hbm, ⟨61, _⟩ => ⟨S50000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S50000 : S_.BroadcastsInDim S50000 (![] : Fin 0 → Fin S50000.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x256_0_1 : S1048576x1.BroadcastsInDim S1048576x256 (![0, 1] : Fin 2 → Fin S1048576x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S1x256_S50000x256_0_1 : S1x256.BroadcastsInDim S50000x256 (![0, 1] : Fin 2 → Fin S50000x256.rank)
  bcast_S50000x1_S50000x256_0_1 : S50000x1.BroadcastsInDim S50000x256 (![0, 1] : Fin 2 → Fin S50000x256.rank)
  dot_S100000x256_S256x256_S100000x256_1_0_0_1_n_n_wf : DotDims.WF S100000x256 S256x256 S100000x256 [1] [0] [0] [1] [] []
  scatter_S50000_S1048576x1_S1048576_n_0_0_1_wf : ScatterDims.WF S50000 S1048576x1 S1048576 [] [0] [0] 1
  gather_S100000x256_S1048576x1_S1048576x256_1_0_n_n_0_1_1256_wf : GatherDims.WF S100000x256 S1048576x1 S1048576x256 [1] [0] [] [0] [] 1 ![1, 256]
  scatter_S50000x256_S1048576x1_S1048576x256_1_0_0_1_wf : ScatterDims.WF S50000x256 S1048576x1 S1048576x256 [1] [0] [0] 1
  gather_S100000x256_S50000x1_S50000x256_1_0_n_n_0_1_1256_wf : GatherDims.WF S100000x256 S50000x1 S50000x256 [1] [0] [] [0] [] 1 ![1, 256]
  dot_S50000x256_S256x256_S50000x256_1_0_0_1_n_n_wf : DotDims.WF S50000x256 S256x256 S50000x256 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S50000_S1048576x1_S1048576_n_0_0_1 : ScatterDims S50000 S1048576x1 S1048576 where
  updateWindowDims := []
  insertedWindowDims := [0]
  scatterDimsToOperandDims := [0]
  indexVectorDim := 1
  wf := scatter_S50000_S1048576x1_S1048576_n_0_0_1_wf
def gather_S100000x256_S1048576x1_S1048576x256_1_0_n_n_0_1_1256 : GatherDims S100000x256 S1048576x1 S1048576x256 where
  offsetDims := [1]
  collapsedSliceDims := [0]
  operandBatchingDims := []
  startIndicesBatchingDims := []
  startIndexMap := [0]
  indexVectorDim := 1
  sliceSizes := ![1, 256]
  wf := gather_S100000x256_S1048576x1_S1048576x256_1_0_n_n_0_1_1256_wf
def scatter_S50000x256_S1048576x1_S1048576x256_1_0_0_1 : ScatterDims S50000x256 S1048576x1 S1048576x256 where
  updateWindowDims := [1]
  insertedWindowDims := [0]
  scatterDimsToOperandDims := [0]
  indexVectorDim := 1
  wf := scatter_S50000x256_S1048576x1_S1048576x256_1_0_0_1_wf
def gather_S100000x256_S50000x1_S50000x256_1_0_n_n_0_1_1256 : GatherDims S100000x256 S50000x1 S50000x256 where
  offsetDims := [1]
  collapsedSliceDims := [0]
  operandBatchingDims := []
  startIndicesBatchingDims := []
  startIndexMap := [0]
  indexVectorDim := 1
  sliceSizes := ![1, 256]
  wf := gather_S100000x256_S50000x1_S50000x256_1_0_n_n_0_1_1256_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LastBoundary.lean ====
/-
  The program's run, with its final memory named.

  @main is four segments: the first stretch of host operations, the first region, the second stretch, the second region.
  The generated frame module builds every segment and the buffer contents at each boundary between them (the last one
  is `W4`), and concludes only that the arguments end unchanged. Here the same segments are run once more and the
  conclusion is kept whole: every weakly fair execution terminates, nothing faults, and EVERY buffer that outlives a
  region — the result among them — ends holding the last boundary's contents.
-/
import proofs.«138775_j44899588112477_1_alg».proof.Proof.Gen.KernelIdeal.Frame

set_option maxRecDepth 16384

noncomputable section

namespace Cert.KernelIdeal.LastBoundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main terminates without a fault, and in the
    final state every buffer that no region scopes holds what the last segment boundary says (`W4`). -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer is one of those buffers: it ends at the last boundary's contents. -/
theorem result_at (r : PUnit × MemSt nD τ sig (Elt F))
    (h : ∀ c : Dev nD, ∀ b ∈ Pipeline.ucRefs τ sig, r.2.mem (((c : Thread nD τ)).1, b) = W4 m ρ c b) (c : Dev nD) :
    r.2.mem ((c.tc : Thread nD τ).loc main_v28) = W4 m ρ c (Proc.devRef .tc main_v28) :=
  h c _ (mem_uc main_v28 (by decide))

/-- Each argument is one of those buffers too, and the last boundary's contents of an argument are its launch
    contents: no host operation and no region writes an argument. -/
theorem args_at (r : PUnit × MemSt nD τ sig (Elt F))
    (h : ∀ c : Dev nD, ∀ b ∈ Pipeline.ucRefs τ sig, r.2.mem (((c : Thread nD τ)).1, b) = W4 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨(h c _ (mem_uc main_arg0 (by decide))).trans (W4_main_arg0 m ρ c),
   (h c _ (mem_uc main_arg1 (by decide))).trans (W4_main_arg1 m ρ c),
   (h c _ (mem_uc main_arg2 (by decide))).trans (W4_main_arg2 m ρ c),
   (h c _ (mem_uc main_arg3 (by decide))).trans (W4_main_arg3 m ρ c),
   (h c _ (mem_uc main_arg4 (by decide))).trans (W4_main_arg4 m ρ c),
   (h c _ (mem_uc main_arg5 (by decide))).trans (W4_main_arg5 m ρ c),
   (h c _ (mem_uc main_arg6 (by decide))).trans (W4_main_arg6 m ρ c),
   (h c _ (mem_uc main_arg7 (by decide))).trans (W4_main_arg7 m ρ c),
   (h c _ (mem_uc main_arg8 (by decide))).trans (W4_main_arg8 m ρ c),
   (h c _ (mem_uc main_arg9 (by decide))).trans (W4_main_arg9 m ρ c),
   (h c _ (mem_uc main_arg10 (by decide))).trans (W4_main_arg10 m ρ c),
   (h c _ (mem_uc main_arg11 (by decide))).trans (W4_main_arg11 m ρ c),
   (h c _ (mem_uc main_arg12 (by decide))).trans (W4_main_arg12 m ρ c),
   (h c _ (mem_uc main_arg13 (by decide))).trans (W4_main_arg13 m ρ c),
   (h c _ (mem_uc main_arg14 (by decide))).trans (W4_main_arg14 m ρ c),
   (h c _ (mem_uc main_arg15 (by decide))).trans (W4_main_arg15 m ρ c)⟩

end Cert.KernelIdeal.LastBoundary

end
-- ==== Proof.Body.lean ====
/-
  What each of the two kernel bodies stores, read at one entry of its tile.

  The first body casts a `5000 × 256` tile of embeddings and the weight matrix to the narrower float format (the identity
  on the extended reals), multiplies them into a zero accumulator and adds the bias row: entry `(p, q)` is
  `Σ_k x[p,k] · w[k,q] + b[0,q]`.

  The second body does this twice on a `2000 × 256` tile of gathered embeddings (weights `w1`, `w2`, biases `b1`, `b2`),
  scales the first projection by the tile's degree column and adds the aggregated tile and the second projection:
  entry `(p, q)` is `(d[p,0] · (Σ_k x[p,k] · w1[k,q] + b1[0,q]) + a[p,q]) + (Σ_k x[p,k] · w2[k,q] + b2[0,q])`.
-/
import proofs.«138775_j44899588112477_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The row coordinate of the left operand's index is the output's row. -/
theorem lhs5000_row (i : S5000x256.Idx) (c : dot_S5000x256_S256x256_S5000x256_1_0_0_1_n_n.contr.Idx) :
    (dot_S5000x256_S256x256_S5000x256_1_0_0_1_n_n.lhsIdx i c 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

/-- The column coordinate of the right operand's index is the output's column. -/
theorem rhs5000_col (i : S5000x256.Idx) (c : dot_S5000x256_S256x256_S5000x256_1_0_0_1_n_n.contr.Idx) :
    (dot_S5000x256_S256x256_S5000x256_1_0_0_1_n_n.rhsIdx i c 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- A `5000 × 256` tile times a `256 × 256` matrix into a zero accumulator: entry `(p, q)` is the plain sum over
    the contracted axis. -/
theorem matmul5000_apply (l : FVec Ideal S5000x256 .bf16) (r : FVec Ideal S256x256 .bf16) (p : Fin 5000) (q : Fin 256) :
    matmul dot_S5000x256_S256x256_S5000x256_1_0_0_1_n_n none l r (constant (F := Ideal) S5000x256 .f32 0x00000000#32) (ix2 p q)
      = ∑ k : Fin 256, l (ix2 p k) * r (ix2 k q) := by
  refine (Ideal.matmul_constant_zero_apply dot_S5000x256_S256x256_S5000x256_1_0_0_1_n_n none l r (ix2 p q)).trans ?_
  rw [← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k :=
    funext fun a => Fin.ext (by
      match a with
      | ⟨0, _⟩ => exact lhs5000_row _ _
      | ⟨1, _⟩ => exact (dot_S5000x256_S256x256_S5000x256_1_0_0_1_n_n.lhsIdx_val_of_single rfl _ _).trans hk)
  have er : dot_S5000x256_S256x256_S5000x256_1_0_0_1_n_n.rhsIdx (ix2 p q) ((contrEquiv1 dot_S5000x256_S256x256_S5000x256_1_0_0_1_n_n 256 rfl rfl).symm k) = ix2 k q :=
    funext fun a => Fin.ext (by
      match a with
      | ⟨0, _⟩ => exact (dot_S5000x256_S256x256_S5000x256_1_0_0_1_n_n.rhsIdx_val_of_single rfl _ _).trans hk
      | ⟨1, _⟩ => exact rhs5000_col _ _)
  rw [el, er]

/-- The row coordinate of the left operand's index is the output's row. -/
theorem lhs2000_row (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The column coordinate of the right operand's index is the output's column. -/
theorem rhs2000_col (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- A `2000 × 256` tile times a `256 × 256` matrix into a zero accumulator: entry `(p, q)` is the plain sum over
    the contracted axis. -/
theorem matmul2000_apply (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  refine (Ideal.matmul_constant_zero_apply dot_S2000x256_S256x256_S2000x256_1_0_0_1_n_n none l r (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k :=
    funext fun a => Fin.ext (by
      match a with
      | ⟨0, _⟩ => exact lhs2000_row _ _
      | ⟨1, _⟩ => exact (dot_S2000x256_S256x256_S2000x256_1_0_0_1_n_n.lhsIdx_val_of_single rfl _ _).trans hk)
  have er : dot_S2000x256_S256x256_S2000x256_1_0_0_1_n_n.rhsIdx (ix2 p q) ((contrEquiv1 dot_S2000x256_S256x256_S2000x256_1_0_0_1_n_n 256 rfl rfl).symm k) = ix2 k q :=
    funext fun a => Fin.ext (by
      match a with
      | ⟨0, _⟩ => exact (dot_S2000x256_S256x256_S2000x256_1_0_0_1_n_n.rhsIdx_val_of_single rfl _ _).trans hk
      | ⟨1, _⟩ => exact rhs2000_col _ _)
  rw [el, er]

/-- A bias row `[1, 256]` spread over the rows of a `5000 × 256` tile: entry `(p, q)` is the row's entry `q`. -/
theorem bias5000_apply (b : FVec Ideal S1x256 .f32) (p : Fin 5000) (q : Fin 256) :
    broadcastTo S5000x256 (shapeCast S1x256 b shapeCasts_S1x256_S1x256) broadcasts_S1x256_S5000x256 (ix2 p q) = b (ix2 0 q) := by
  rw [shapeCast_self]
  exact broadcastTo_apply b broadcasts_S1x256_S5000x256 (ix2 p q) (ix2 0 q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- The same over a `2000 × 256` tile. -/
theorem bias2000_apply (b : FVec Ideal S1x256 .f32) (p : Fin 2000) (q : Fin 256) :
    broadcastTo S2000x256 (shapeCast S1x256 b shapeCasts_S1x256_S1x256) broadcasts_S1x256_S2000x256 (ix2 p q) = b (ix2 0 q) := by
  rw [shapeCast_self]
  exact broadcastTo_apply b broadcasts_S1x256_S2000x256 (ix2 p q) (ix2 0 q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- A degree column `[2000, 1]` spread over the channels of a `2000 × 256` tile: entry `(p, q)` is the column's entry `p`. -/
theorem degcol2000_apply (d : FVec Ideal S2000x1 .f32) (p : Fin 2000) (q : Fin 256) :
    broadcastTo S2000x256 (shapeCast S2000x1 d shapeCasts_S2000x1_S2000x1) broadcasts_S2000x1_S2000x256 (ix2 p q) = d (ix2 p 0) := by
  rw [shapeCast_self]
  exact broadcastTo_apply d broadcasts_S2000x1_S2000x256 (ix2 p q) (ix2 p 0) (fun a => match a with
    | ⟨0, _⟩ => by show p.val = if (2000 : Nat) = 1 then 0 else p.val; rw [if_neg (by decide)]
    | ⟨1, _⟩ => by show (0 : Nat) = if (1 : Nat) = 1 then 0 else _; rw [if_pos rfl])

/-- The first body's stored tile at entry `(p, q)`. -/
theorem proj_tile_apply (x : Vec Ideal S5000x256 .f32) (w : Vec Ideal S256x256 .f32) (b : Vec Ideal S1x256 .f32)
    (p : Fin 5000) (q : Fin 256) :
    k0_pay1 (F := Ideal) x w b (ix2 p q) = (∑ k : Fin 256, x (ix2 p k) * w (ix2 k q)) + b (ix2 0 q) := by
  unfold k0_pay1
  rw [addf_apply, matmul5000_apply, bias5000_apply]
  rfl

/-- The second body's stored tile at entry `(p, q)`. -/
theorem score_tile_apply (x : Vec Ideal S2000x256 .f32) (w1 w2 : Vec Ideal S256x256 .f32) (b1 b2 : Vec Ideal S1x256 .f32)
    (d : Vec Ideal S2000x1 .f32) (a : Vec Ideal S2000x256 .f32) (p : Fin 2000) (q : Fin 256) :
    k1_pay1 (F := Ideal) x w1 w2 b1 b2 d a (ix2 p q)
      = (d (ix2 p 0) * ((∑ k : Fin 256, x (ix2 p k) * w1 (ix2 k q)) + b1 (ix2 0 q)) + a (ix2 p q))
        + ((∑ k : Fin 256, x (ix2 p k) * w2 (ix2 k q)) + b2 (ix2 0 q)) := by
  unfold k1_pay1
  rw [addf_apply, addf_apply, mulf_apply, addf_apply, addf_apply, matmul2000_apply, matmul2000_apply,
    bias2000_apply, bias2000_apply, degcol2000_apply]
  simp only [shapeCast_self]
  rfl

end Cert.KernelIdeal.Body

end
-- ==== Proof.Spec.lean ====
/-
  The two functions this certificate is about, stated once, index by index, on the extended reals.

  `affine X W b` is the row-by-row affine map `X · W + b` of a `100000 × 256` array: entry `(r, j)` is
  `Σ_k X[r,k] · W[k,j] + b[j]`.

  `combine nce W1 b1 W2 b2 deg aggr` is the final score of the `50000` valid nodes: entry `(r, j)` is
  `(deg[r] · (Σ_k nce[r,k] · W1[k,j] + b1[j]) + aggr[r,j]) + (Σ_k nce[r,k] · W2[k,j] + b2[j])`,
  with exactly this grouping of the three summands. Both programs compute the entries in this grouping, so no law
  beyond reading each operation at an index is needed, and no input has to be finite for the equality.
-/
import Idealize.ShloMosaic.PureOps.Ideal
import Idealize.ShloMosaic.Lib.ValueIdx

noncomputable section

namespace Cert.Spec

open Idealize.ShloMosaic Idealize.ShloMosaic.ValueIdx

/-- The shapes, spelt literally (each program spells the same shapes under its own names). -/
abbrev SN : Shape := ⟨2, ![100000, 256]⟩
abbrev SV : Shape := ⟨2, ![50000, 256]⟩
abbrev SW : Shape := ⟨2, ![256, 256]⟩
abbrev SB : Shape := ⟨1, ![256]⟩
abbrev SD : Shape := ⟨1, ![50000]⟩

/-- `X · W + b`: row `r` of `X` against column `j` of `W`, plus the bias of column `j`. -/
def affine (X : SN.Idx → EReal) (W : SW.Idx → EReal) (b : SB.Idx → EReal) : SN.Idx → EReal :=
  fun i => (∑ k : Fin 256, X (ix2 (i 0) k) * W (ix2 k (i 1))) + b (ix1 (i 1))

/-- The score of valid node `r` in channel `j`: its degree times its first projection, plus what its
    neighbours sent, plus its second projection — grouped `(a + b) + c`. -/
def combine (nce : SV.Idx → EReal) (W1 : SW.Idx → EReal) (b1 : SB.Idx → EReal) (W2 : SW.Idx → EReal) (b2 : SB.Idx → EReal)
    (deg : SD.Idx → EReal) (aggr : SV.Idx → EReal) : SV.Idx → EReal :=
  fun i => (deg (ix1 (i 0)) * ((∑ k : Fin 256, nce (ix2 (i 0) k) * W1 (ix2 k (i 1))) + b1 (ix1 (i 1))) + aggr i)
    + ((∑ k : Fin 256, nce (ix2 (i 0) k) * W2 (ix2 k (i 1))) + b2 (ix1 (i 1)))

end Cert.Spec

end
-- ==== Proof.Tiles0.lean ====
/-
  The first region, from tiles to the whole array.

  The region runs over 20 grid points; point `t` reads rows `5000·t … 5000·t + 4999` of the embeddings, the whole
  weight matrix and the whole bias row, and writes rows `5000·t … 5000·t + 4999` of its result. Row `r` of the result is
  therefore written by point `r / 5000`, every row by exactly one point, and what is written at `(r, j)` is the
  body's entry `(r mod 5000, j)`: `Σ_k X[r,k] · W[k,j] + b[0,j]`. So whatever the buffers hold when the region is
  entered (`V`), its result array ends as `Spec.affine` of the three arrays it reads there.
-/
import proofs.«138775_j44899588112477_1_alg».proof.Proof.Gen.KernelIdeal.Frame
import proofs.«138775_j44899588112477_1_alg».proof.Proof.Body
import proofs.«138775_j44899588112477_1_alg».proof.Proof.Spec

set_option maxRecDepth 16384

noncomputable section

namespace Cert.KernelIdeal.Tiles0

open Cert.KernelIdeal Cert.KernelIdeal.Gen Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

theorem zero2 : (![0, 0] : Fin 2 → Nat) = fun _ => 0 := funext fun a => by fin_cases a <;> rfl

/-- Where each window's block sits at point `t`: the embeddings' and the result's blocks are block row `t`, the weight
    matrix and the bias row are always their one block. Decided over the 20 points. -/
theorem blocks_at : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The bias as the region finds it: the `[1, 256]` row read as a function of the channel. -/
def biasRow (c : Dev nD) : Cert.Spec.SB.Idx → EReal := fun j => V c main_v0 (ix2 0 (j 0))

/-- The array the region's result ends as. -/
def projected (c : Dev nD) : S100000x256.Idx → EReal :=
  Cert.Spec.affine (V c main_arg0) (V c main_arg10) (biasRow V c)

/-- One entry, once the three reads are known to be at row `i 0`, column `i 1` and channel `i 1`. -/
theorem entry_eq (X : S100000x256.Idx → EReal) (W : S256x256.Idx → EReal) (B : S1x256.Idx → EReal)
    (fx : Fin 256 → S100000x256.Idx) (fw : Fin 256 → S256x256.Idx) (fb : S1x256.Idx) (i : S100000x256.Idx)
    (hx : ∀ k, fx k = ix2 (i 0) k) (hw : ∀ k, fw k = ix2 k (i 1)) (hb : fb = ix2 0 (i 1)) :
    (∑ k : Fin 256, X (fx k) * W (fw k)) + B fb = Cert.Spec.affine X W (fun j => B (ix2 0 (j 0))) i := by
  simp only [hx, hw, hb]
  rfl

/-- What point `t` writes back is block row `t` of `projected`. -/
theorem flushed_eq (c : Dev nD) (t : Fin cfg0.N) :
    (dat0 (F := Ideal) V c).flushed 3 t = ((cfg0.win 3).blk t).view.read (Elt Ideal) (projected V c) := by
  show (cfg0.win 3).cut (grid0.coords t) ((dat0 (F := Ideal) V c).after 3 t) = _
  rw [after0_3]
  unfold out0_3
  rw [View.canon_unit_zero zero2]
  simp only [View.ld_unit_zero (S := S5000x256) zero2, View.ld_unit_zero (S := S256x256) zero2, View.ld_unit_zero (S := S1x256) zero2]
  obtain ⟨e0, e1, e2, e3, e4, e5, e6, e7⟩ := blocks_at t
  funext j
  obtain ⟨p, q, rfl⟩ : ∃ (p : Fin 5000) (q : Fin 256), j = ix2 p q := ⟨j 0, j 1, eq_ix2 j⟩
  refine (Body.proj_tile_apply (iblk0 V c 0 t) (iblk0 V c 1 t) (iblk0 V c 2 t) p q).trans ?_
  have hx : ∀ k : Fin 256, ((cfg0.win 0).blk t).view.emb (ix2 p k)
      = ix2 ((((cfg0.win 3).blk t).view.emb (ix2 p q)) 0) k := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  have hw : ∀ k : Fin 256, ((cfg0.win 1).blk t).view.emb (ix2 k q)
      = ix2 k ((((cfg0.win 3).blk t).view.emb (ix2 p q)) 1) := fun k => by
    funext a; apply Fin.ext
    match a with
    | ⟨0, _⟩ => show win0_1.index t (0 : Fin 2) * 256 + 1 * k.val = k.val; omega
    | ⟨1, _⟩ => show win0_1.index t (1 : Fin 2) * 256 + 1 * q.val = win0_3.index t (1 : Fin 2) * 256 + 1 * q.val; omega
  have hb : ((cfg0.win 2).blk t).view.emb (ix2 0 q)
      = ix2 0 ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega
  exact entry_eq (V c main_arg0) (V c main_arg10) (V c main_v0)
    (fun k => ((cfg0.win 0).blk t).view.emb (ix2 p k)) (fun k => ((cfg0.win 1).blk t).view.emb (ix2 k q))
    (((cfg0.win 2).blk t).view.emb (ix2 0 q)) (((cfg0.win 3).blk t).view.emb (ix2 p q)) hx hw hb

/-- An index of the result array is in point `t`'s block iff each coordinate is in the block's range on its axis. -/
theorem mem_tile (t : Fin cfg0.N) (i : S100000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v1).slice (win0_3.rect t)).set ↔ _
  rw [View.set_slice_whole, Rect.mem_set_unit]
  exact Iff.rfl

/-- Every entry of the result array is written by a point: row `r` by point `r / 5000`. -/
theorem covered (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, -⟩ := blocks_at t
  refine ⟨t, flush0_3 t, ?_⟩
  rw [mem_tile]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- The region's result array after its last point. -/
theorem result_eq (c : Dev nD) : (dat0 (F := Ideal) V c).arrAt 3 cfg0.N = projected V c :=
  (dat0 (F := Ideal) V c).arrAt_eq_of_cover 3 (projected V c) (fun t _ => flushed_eq V c t) covered

end Cert.KernelIdeal.Tiles0

end
-- ==== Proof.Tiles1.lean ====
/-
  The second region, from tiles to the whole array.

  The region runs over 25 grid points; point `t` reads rows `2000·t … 2000·t + 1999` of the gathered embeddings, of the
  degree column and of the neighbour sums, both weight matrices and both bias rows whole, and writes rows
  `2000·t … 2000·t + 1999` of the score. Row `r` of the score is written by point `r / 2000` and by no other, and the
  entry written at `(r, j)` is the body's entry `(r mod 2000, j)`. So whatever the buffers hold when the region is
  entered (`V`), the score array ends as `Spec.combine` of the seven arrays it reads there.
-/
import proofs.«138775_j44899588112477_1_alg».proof.Proof.Gen.KernelIdeal.Frame
import proofs.«138775_j44899588112477_1_alg».proof.Proof.Body
import proofs.«138775_j44899588112477_1_alg».proof.Proof.Spec

set_option maxRecDepth 16384

noncomputable section

namespace Cert.KernelIdeal.Tiles1

open Cert.KernelIdeal Cert.KernelIdeal.Gen Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

theorem zero2 : (![0, 0] : Fin 2 → Nat) = fun _ => 0 := funext fun a => by fin_cases a <;> rfl

/-- Where each window's block sits at point `t`: the gathered rows, the degree column, the neighbour sums and the score
    are at block row `t`; the weight matrices and bias rows are always their one block. Decided over the 25 points. -/
theorem blocks_at : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- A `[1, 256]` bias row read as a function of the channel. -/
def rowOf (B : S1x256.Idx → EReal) : Cert.Spec.SB.Idx → EReal := fun j => B (ix2 0 (j 0))

/-- A `[50000, 1]` degree column read as a function of the node. -/
def colOf (D : S50000x1.Idx → EReal) : Cert.Spec.SD.Idx → EReal := fun j => D (ix2 (j 0) 0)

/-- The array the region's result ends as. -/
def scored (c : Dev nD) : S50000x256.Idx → EReal :=
  Cert.Spec.combine (V c main_v24) (V c main_arg12) (rowOf (V c main_v25)) (V c main_arg14) (rowOf (V c main_v26))
    (colOf (V c main_v27)) (V c main_v17)

/-- One entry, once every read is known to be at the entry's row, column or channel. -/
theorem entry_eq (X : S50000x256.Idx → EReal) (W1 W2 : S256x256.Idx → EReal) (B1 B2 : S1x256.Idx → EReal)
    (D : S50000x1.Idx → EReal) (A : S50000x256.Idx → EReal)
    (fx : Fin 256 → S50000x256.Idx) (fw1 fw2 : Fin 256 → S256x256.Idx) (fb1 fb2 : S1x256.Idx) (fd : S50000x1.Idx)
    (fa : S50000x256.Idx) (i : S50000x256.Idx)
    (hx : ∀ k, fx k = ix2 (i 0) k) (hw1 : ∀ k, fw1 k = ix2 k (i 1)) (hw2 : ∀ k, fw2 k = ix2 k (i 1))
    (hb1 : fb1 = ix2 0 (i 1)) (hb2 : fb2 = ix2 0 (i 1)) (hd : fd = ix2 (i 0) 0) (ha : fa = i) :
    (D fd * ((∑ k : Fin 256, X (fx k) * W1 (fw1 k)) + B1 fb1) + A fa) + ((∑ k : Fin 256, X (fx k) * W2 (fw2 k)) + B2 fb2)
      = Cert.Spec.combine X W1 (rowOf B1) W2 (rowOf B2) (colOf D) A i := by
  simp only [hx, hw1, hw2, hb1, hb2, hd, ha]
  rfl

/-- What point `t` writes back is block row `t` of `scored`. -/
theorem flushed_eq (c : Dev nD) (t : Fin cfg1.N) :
    (dat1 (F := Ideal) V c).flushed 7 t = ((cfg1.win 7).blk t).view.read (Elt Ideal) (scored V c) := by
  show (cfg1.win 7).cut (grid1.coords t) ((dat1 (F := Ideal) V c).after 7 t) = _
  rw [after1_7]
  unfold out1_7
  rw [View.canon_unit_zero zero2]
  simp only [View.ld_unit_zero (S := S2000x256) zero2, View.ld_unit_zero (S := S256x256) zero2,
    View.ld_unit_zero (S := S1x256) zero2, View.ld_unit_zero (S := S2000x1) zero2]
  obtain ⟨e0, e1, e2, e3, e4, e5, e6, e7, e8, e9, e10, e11, e12, e13, e14, e15⟩ := blocks_at t
  funext j
  obtain ⟨p, q, rfl⟩ : ∃ (p : Fin 2000) (q : Fin 256), j = ix2 p q := ⟨j 0, j 1, eq_ix2 j⟩
  refine (Body.score_tile_apply (iblk1 V c 0 t) (iblk1 V c 1 t) (iblk1 V c 3 t) (iblk1 V c 2 t) (iblk1 V c 4 t)
    (iblk1 V c 5 t) (iblk1 V c 6 t) p q).trans ?_
  have hx : ∀ k : Fin 256, ((cfg1.win 0).blk t).view.emb (ix2 p k)
      = ix2 ((((cfg1.win 7).blk t).view.emb (ix2 p q)) 0) k := fun k => by
    funext a; apply Fin.ext
    match a with
    | ⟨0, _⟩ => show win1_0.index t (0 : Fin 2) * 2000 + 1 * p.val = win1_7.index t (0 : Fin 2) * 2000 + 1 * p.val; omega
    | ⟨1, _⟩ => show win1_0.index t (1 : Fin 2) * 256 + 1 * k.val = k.val; omega
  have hw1 : ∀ k : Fin 256, ((cfg1.win 1).blk t).view.emb (ix2 k q)
      = ix2 k ((((cfg1.win 7).blk t).view.emb (ix2 p q)) 1) := fun k => by
    funext a; apply Fin.ext
    match a with
    | ⟨0, _⟩ => show win1_1.index t (0 : Fin 2) * 256 + 1 * k.val = k.val; omega
    | ⟨1, _⟩ => show win1_1.index t (1 : Fin 2) * 256 + 1 * q.val = win1_7.index t (1 : Fin 2) * 256 + 1 * q.val; omega
  have hw2 : ∀ k : Fin 256, ((cfg1.win 3).blk t).view.emb (ix2 k q)
      = ix2 k ((((cfg1.win 7).blk t).view.emb (ix2 p q)) 1) := fun k => by
    funext a; apply Fin.ext
    match a with
    | ⟨0, _⟩ => show win1_3.index t (0 : Fin 2) * 256 + 1 * k.val = k.val; omega
    | ⟨1, _⟩ => show win1_3.index t (1 : Fin 2) * 256 + 1 * q.val = win1_7.index t (1 : Fin 2) * 256 + 1 * q.val; omega
  have hb1 : ((cfg1.win 2).blk t).view.emb (ix2 0 q)
      = ix2 0 ((((cfg1.win 7).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 256 + 1 * q.val = win1_7.index t (1 : Fin 2) * 256 + 1 * q.val; omega
  have hb2 : ((cfg1.win 4).blk t).view.emb (ix2 0 q)
      = ix2 0 ((((cfg1.win 7).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 256 + 1 * q.val = win1_7.index t (1 : Fin 2) * 256 + 1 * q.val; omega
  have hd : (((cfg1.win 5).blk t).view.emb (ix2 p (0 : Fin 1)) : S50000x1.Idx)
      = (ix2 ((((cfg1.win 7).blk t).view.emb (ix2 p q)) 0) (0 : Fin 1) : S50000x1.Idx) := by
    funext a; apply Fin.ext
    match a with
    | ⟨0, _⟩ => show win1_5.index t (0 : Fin 2) * 2000 + 1 * p.val = win1_7.index t (0 : Fin 2) * 2000 + 1 * p.val; omega
    | ⟨1, _⟩ => show win1_5.index t (1 : Fin 2) * 1 + 1 * 0 = 0; omega
  have ha : ((cfg1.win 6).blk t).view.emb (ix2 p q) = ((cfg1.win 7).blk t).view.emb (ix2 p q) := by
    funext a; apply Fin.ext
    match a with
    | ⟨0, _⟩ => show win1_6.index t (0 : Fin 2) * 2000 + 1 * p.val = win1_7.index t (0 : Fin 2) * 2000 + 1 * p.val; omega
    | ⟨1, _⟩ => show win1_6.index t (1 : Fin 2) * 256 + 1 * q.val = win1_7.index t (1 : Fin 2) * 256 + 1 * q.val; omega
  exact entry_eq (V c main_v24) (V c main_arg12) (V c main_arg14) (V c main_v25) (V c main_v26) (V c main_v27) (V c main_v17)
    (fun k => ((cfg1.win 0).blk t).view.emb (ix2 p k)) (fun k => ((cfg1.win 1).blk t).view.emb (ix2 k q))
    (fun k => ((cfg1.win 3).blk t).view.emb (ix2 k q)) (((cfg1.win 2).blk t).view.emb (ix2 0 q))
    (((cfg1.win 4).blk t).view.emb (ix2 0 q)) (((cfg1.win 5).blk t).view.emb (ix2 p (0 : Fin 1)))
    (((cfg1.win 6).blk t).view.emb (ix2 p q)) (((cfg1.win 7).blk t).view.emb (ix2 p q)) hx hw1 hw2 hb1 hb2 hd ha

/-- An index of the score array is in point `t`'s block iff each coordinate is in the block's range on its axis. -/
theorem mem_tile (t : Fin cfg1.N) (i : S50000x256.Idx) :
    i ∈ ((cfg1.win 7).blk t).view.set ↔ ∀ a : Fin 2, win1_7.index t a * S2000x256.size a ≤ (i a).val
      ∧ (i a).val < win1_7.index t a * S2000x256.size a + S2000x256.size a := by
  show i ∈ ((View.whole main_v28).slice (win1_7.rect t)).set ↔ _
  rw [View.set_slice_whole, Rect.mem_set_unit]
  exact Iff.rfl

/-- Every entry of the score array is written by a point: row `r` by point `r / 2000`. -/
theorem covered (i : S50000x256.Idx) :
    ∃ t : Fin cfg1.N, (cfg1.win 7).flush t = true ∧ i ∈ ((cfg1.win 7).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨e0, e1, -⟩ := blocks_at t
  refine ⟨t, flush1_7 t, ?_⟩
  rw [mem_tile]
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * 256 ≤ (i 1).val ∧ (i 1).val < win1_7.index t (1 : Fin 2) * 256 + 256
    omega

/-- The region's result array after its last point. -/
theorem result_eq (c : Dev nD) : (dat1 (F := Ideal) V c).arrAt 7 cfg1.N = scored V c :=
  (dat1 (F := Ideal) V c).arrAt_eq_of_cover 7 (scored V c) (fun t _ => flushed_eq V c t) covered

end Cert.KernelIdeal.Tiles1

end
-- ==== Proof.Glue.lean ====
/-
  The host operations between the two regions, and the buffers each region finds.

  Before the first region the program only reshapes the first bias to a `[1, 256]` row. Between the regions it computes,
  from the projected embeddings the first region left and from the arguments:
  * `degree`: the edge weights summed into their target nodes (a scatter-add into zeros);
  * `neighbourSum`: each edge's weight times the projected row of its source community — the source index wrapped once
    when negative —, summed into the edge's target node (a gather, a product, a scatter-add into zeros);
  * `validRows`: the embedding rows of the valid nodes (a gather, the node index wrapped once when negative);
  and reshapes the other two biases to rows and the degree to a column. The three functions are named here once and are
  never opened: the reference applies the very same operations, so only the values that go in have to agree.
-/
import proofs.«138775_j44899588112477_1_alg».proof.Proof.Gen.KernelIdeal.Frame
import Idealize.ShloMosaic.Lib.StableHlo.Run
import Idealize.ShloMosaic.PureOps.Ideal
import Idealize.ShloMosaic.Lib.Pipeline.Value
import Idealize.ShloMosaic.Lib.ValueIdx

set_option maxRecDepth 16384

noncomputable section

namespace Cert.KernelIdeal.Glue

open Cert.KernelIdeal Cert.KernelIdeal.Gen Idealize.ShloMosaic Idealize.ShloMosaic.TcCoe Idealize.ShloMosaic.StableHlo
open Idealize.SL Idealize.SL.Sem

/-- The edge weights summed into their target nodes. -/
def degree (tgt : (⟨S1048576, .i32⟩ : BufTy).Contents (Elt Ideal)) (wt : (⟨S1048576, .f32⟩ : BufTy).Contents (Elt Ideal)) :
    (⟨S50000, .f32⟩ : BufTy).Contents (Elt Ideal) :=
  Host.scatterAdd scatter_S50000_S1048576x1_S1048576_n_0_0_1
    (broadcastInDim S50000 ![] bcast_S_S50000 (constant (F := Ideal) S_ .f32 0x00000000#32))
    (broadcastInDim S1048576x1 ![0] bcast_S1048576_S1048576x1_0 tgt) wt

/-- Each edge's weight times the projected row of its source, summed into the edge's target node. -/
def neighbourSum (acw : (⟨S100000x256, .f32⟩ : BufTy).Contents (Elt Ideal)) (tgt src : (⟨S1048576, .i32⟩ : BufTy).Contents (Elt Ideal))
    (wt : (⟨S1048576, .f32⟩ : BufTy).Contents (Elt Ideal)) : (⟨S50000x256, .f32⟩ : BufTy).Contents (Elt Ideal) :=
  Host.scatterAdd scatter_S50000x256_S1048576x1_S1048576x256_1_0_0_1
    (broadcastInDim S50000x256 ![] bcast_S_S50000x256 (constant (F := Ideal) S_ .f32 0x00000000#32))
    (broadcastInDim S1048576x1 ![0] bcast_S1048576_S1048576x1_0 tgt)
    (mulf (broadcastInDim S1048576x256 ![0, 1] bcast_S1048576x1_S1048576x256_0_1 (broadcastInDim S1048576x1 ![0] bcast_S1048576_S1048576x1_0 wt))
      (Host.gather gather_S100000x256_S1048576x1_S1048576x256_1_0_n_n_0_1_1256 acw
        (broadcastInDim S1048576x1 ![0] bcast_S1048576_S1048576x1_0
          (select (cmpi .slt src (broadcastInDim S1048576 ![] bcast_S_S1048576 (constantI S_ 32 0#32)))
            (addi src (broadcastInDim S1048576 ![] bcast_S_S1048576 (constantI S_ 32 100000#32))) src))))

/-- The embedding rows of the valid nodes. -/
def validRows (emb : (⟨S100000x256, .f32⟩ : BufTy).Contents (Elt Ideal)) (nodes : (⟨S50000, .i32⟩ : BufTy).Contents (Elt Ideal)) :
    (⟨S50000x256, .f32⟩ : BufTy).Contents (Elt Ideal) :=
  Host.gather gather_S100000x256_S50000x1_S50000x256_1_0_n_n_0_1_1256 emb
    (broadcastInDim S50000x1 ![0] bcast_S50000_S50000x1_0
      (select (cmpi .slt nodes (broadcastInDim S50000 ![] bcast_S_S50000 (constantI S_ 32 0#32)))
        (addi nodes (broadcastInDim S50000 ![] bcast_S_S50000 (constantI S_ 32 100000#32))) nodes))

variable (m : (ℓ : Loc nD τ sig) → Buf (Elt Ideal) ℓ) (ρ : Dev nD → PrngReg)

/-! ## What the first region finds -/

theorem first_bias (c : Dev nD) :
    V1 m ρ c main_v0 = shapeCast S1x256 (m ((c : Thread nD τ).loc main_arg11)) shapeCasts_S256_S1x256 := by
  show StableHlo.after hostOps0 (W0 m ρ c) (Proc.devRef .tc main_v0) = _
  dsimp only [hostOps0]
  after_results
  rfl

theorem first_emb (c : Dev nD) : V1 m ρ c main_arg0 = m ((c : Thread nD τ).loc main_arg0) := by
  show StableHlo.after hostOps0 (W0 m ρ c) (Proc.devRef .tc main_arg0) = _
  dsimp only [hostOps0]
  after_results

theorem first_weight (c : Dev nD) : V1 m ρ c main_arg10 = m ((c : Thread nD τ).loc main_arg10) := by
  show StableHlo.after hostOps0 (W0 m ρ c) (Proc.devRef .tc main_arg10) = _
  dsimp only [hostOps0]
  after_results

/-! ## Between the regions: the arguments are as launched, the first result is what the first region left -/

/-- The embeddings are a window of the first region that is only read. -/
theorem mid_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (first_emb m ρ c)

theorem mid_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  dsimp only [hostOps0]
  after_results

theorem mid_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  dsimp only [hostOps0]
  after_results

theorem mid_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  dsimp only [hostOps0]
  after_results

theorem mid_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  dsimp only [hostOps0]
  after_results

theorem mid_arg12 (c : Dev nD) : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  dsimp only [hostOps0]
  after_results

theorem mid_arg13 (c : Dev nD) : W2 m ρ c (Proc.devRef .tc main_arg13) = m ((c : Thread nD τ).loc main_arg13) := by
  refine (W2_of_ne m ρ c main_arg13 (by decide)).trans ?_
  show StableHlo.after hostOps0 (W0 m ρ c) (Proc.devRef .tc main_arg13) = _
  dsimp only [hostOps0]
  after_results

theorem mid_arg14 (c : Dev nD) : W2 m ρ c (Proc.devRef .tc main_arg14) = m ((c : Thread nD τ).loc main_arg14) := by
  refine (W2_of_ne m ρ c main_arg14 (by decide)).trans ?_
  show StableHlo.after hostOps0 (W0 m ρ c) (Proc.devRef .tc main_arg14) = _
  dsimp only [hostOps0]
  after_results

theorem mid_arg15 (c : Dev nD) : W2 m ρ c (Proc.devRef .tc main_arg15) = m ((c : Thread nD τ).loc main_arg15) := by
  refine (W2_of_ne m ρ c main_arg15 (by decide)).trans ?_
  show StableHlo.after hostOps0 (W0 m ρ c) (Proc.devRef .tc main_arg15) = _
  dsimp only [hostOps0]
  after_results

/-- The first result holds what the first region's last write-back left. -/
theorem mid_proj (c : Dev nD) : W2 m ρ c (Proc.devRef .tc main_v1) = (dat0 (V1 m ρ) c).arrAt 3 cfg0.N := W2_arr m ρ c 3

/-! ## What the second region finds -/

set_option maxHeartbeats 4000000 in
theorem second_rows (c : Dev nD) : V3 m ρ c main_v24 = validRows (W2 m ρ c (Proc.devRef .tc main_arg0)) (W2 m ρ c (Proc.devRef .tc main_arg2)) := by
  show StableHlo.after hostOps1 (W2 m ρ c) (Proc.devRef .tc main_v24) = _
  dsimp only [hostOps1]
  after_results
  rfl

theorem second_w1 (c : Dev nD) : V3 m ρ c main_arg12 = (W2 m ρ c (Proc.devRef .tc main_arg12)) := by
  show StableHlo.after hostOps1 (W2 m ρ c) (Proc.devRef .tc main_arg12) = _
  dsimp only [hostOps1]
  after_results

theorem second_b1 (c : Dev nD) : V3 m ρ c main_v25 = shapeCast S1x256 (W2 m ρ c (Proc.devRef .tc main_arg13)) shapeCasts_S256_S1x256 := by
  show StableHlo.after hostOps1 (W2 m ρ c) (Proc.devRef .tc main_v25) = _
  dsimp only [hostOps1]
  after_results
  rfl

theorem second_w2 (c : Dev nD) : V3 m ρ c main_arg14 = (W2 m ρ c (Proc.devRef .tc main_arg14)) := by
  show StableHlo.after hostOps1 (W2 m ρ c) (Proc.devRef .tc main_arg14) = _
  dsimp only [hostOps1]
  after_results

theorem second_b2 (c : Dev nD) : V3 m ρ c main_v26 = shapeCast S1x256 (W2 m ρ c (Proc.devRef .tc main_arg15)) shapeCasts_S256_S1x256 := by
  show StableHlo.after hostOps1 (W2 m ρ c) (Proc.devRef .tc main_v26) = _
  dsimp only [hostOps1]
  after_results
  rfl

theorem second_deg (c : Dev nD) : V3 m ρ c main_v27 = shapeCast S50000x1 (degree (W2 m ρ c (Proc.devRef .tc main_arg4)) (W2 m ρ c (Proc.devRef .tc main_arg9))) shapeCasts_S50000_S50000x1 := by
  show StableHlo.after hostOps1 (W2 m ρ c) (Proc.devRef .tc main_v27) = _
  dsimp only [hostOps1]
  after_results
  rfl

set_option maxHeartbeats 4000000 in
theorem second_aggr (c : Dev nD) : V3 m ρ c main_v17 = neighbourSum (W2 m ρ c (Proc.devRef .tc main_v1)) (W2 m ρ c (Proc.devRef .tc main_arg4)) (W2 m ρ c (Proc.devRef .tc main_arg5)) (W2 m ρ c (Proc.devRef .tc main_arg9)) := by
  show StableHlo.after hostOps1 (W2 m ρ c) (Proc.devRef .tc main_v17) = _
  dsimp only [hostOps1]
  after_results
  rfl

/-! ## Reshapes read at an index -/

/-- A `[256]` bias reshaped to a `[1, 256]` row: channel `j` of the row is entry `j` of the bias. -/
theorem row_of_reshape (b : S256.Idx → EReal) (j : S256.Idx) :
    shapeCast S1x256 b shapeCasts_S256_S1x256 (ValueIdx.ix2 0 (j 0)) = b j :=
  shapeCast_apply b shapeCasts_S256_S1x256 (ValueIdx.ix2 0 (j 0)) j (by
    rw [Shape.rowMajor_val_one, Shape.rowMajor_val_two]
    show (j 0).val = 0 * 256 + (j 0).val
    omega)

/-- A `[50000]` degree reshaped to a `[50000, 1]` column: node `j` of the column is entry `j` of the degree. -/
theorem col_of_reshape (d : S50000.Idx → EReal) (j : S50000.Idx) :
    shapeCast S50000x1 d shapeCasts_S50000_S50000x1 (ValueIdx.ix2 (j 0) (0 : Fin 1)) = d j :=
  shapeCast_apply d shapeCasts_S50000_S50000x1 (ValueIdx.ix2 (j 0) (0 : Fin 1)) j (by
    rw [Shape.rowMajor_val_one, Shape.rowMajor_val_two]
    show (j 0).val = (j 0).val * 1 + 0
    omega)

end Cert.KernelIdeal.Glue

end
-- ==== Proof.RefSpec.lean ====
/-
  The reference program's stages are the two functions of the specification.

  Its first four operations (a matrix product, two spreadings of the bias, a sum) are `Spec.affine` of the embeddings,
  the weight matrix and the bias. Its last operations, from the two gathered-row products on, are `Spec.combine` of the
  gathered rows, the two weight matrices and biases, the scattered degree and the scattered neighbour sum — the three
  values that come out of a gather or a scatter stay as they are, unopened.
-/
import proofs.«138775_j44899588112477_1_alg».proof.Proof.Gen.ReferenceIdeal.Read
import proofs.«138775_j44899588112477_1_alg».proof.Proof.Spec

noncomputable section

namespace Cert.ReferenceIdeal.RefSpec

open Cert.ReferenceIdeal Cert.ReferenceIdeal.Read Idealize.ShloMosaic Idealize.ShloMosaic.ValueIdx

/-- The projected embeddings: the matrix product plus the bias spread over the rows. -/
theorem proj_eq (x0 : (⟨S100000x256, .f32⟩ : BufTy).Contents (Elt Ideal)) (x10 : (⟨S256x256, .f32⟩ : BufTy).Contents (Elt Ideal))
    (x11 : (⟨S256, .f32⟩ : BufTy).Contents (Elt Ideal)) :
    val_main_v3 (F := Ideal) x0 x10 x11 = Cert.Spec.affine x0 x10 x11 := by
  funext i
  rw [val_main_v3_apply, val_main_v0_apply, val_main_v2_apply, val_main_v1_apply]
  have e1 : ∀ k : Fin 256, lidx_main_v0 i k = ix2 (i 0) k := fun k => funext fun a => by
    match a with | ⟨0, _⟩ => rfl | ⟨1, _⟩ => rfl
  have e2 : ∀ k : Fin 256, ridx_main_v0 i k = ix2 k (i 1) := fun k => funext fun a => by
    match a with | ⟨0, _⟩ => rfl | ⟨1, _⟩ => rfl
  have e3 : idx_main_v1 (idx_main_v2 i) = ix1 (i 1) := funext fun a => by
    match a with | ⟨0, _⟩ => rfl
  simp only [e1, e2, e3]
  rfl

/-- The final score: both gathered-row products with their biases, the degree column spread over the channels, and
    the two sums, in the program's own grouping. -/
theorem score_eq (x0 : (⟨S100000x256, .f32⟩ : BufTy).Contents (Elt Ideal)) (x2 : (⟨S50000, .i32⟩ : BufTy).Contents (Elt Ideal))
    (x4 x5 : (⟨S1048576, .i32⟩ : BufTy).Contents (Elt Ideal)) (x9 : (⟨S1048576, .f32⟩ : BufTy).Contents (Elt Ideal))
    (x10 : (⟨S256x256, .f32⟩ : BufTy).Contents (Elt Ideal)) (x11 : (⟨S256, .f32⟩ : BufTy).Contents (Elt Ideal))
    (x12 : (⟨S256x256, .f32⟩ : BufTy).Contents (Elt Ideal)) (x13 : (⟨S256, .f32⟩ : BufTy).Contents (Elt Ideal))
    (x14 : (⟨S256x256, .f32⟩ : BufTy).Contents (Elt Ideal)) (x15 : (⟨S256, .f32⟩ : BufTy).Contents (Elt Ideal)) :
    val_main_v39 (F := Ideal) x0 x2 x4 x5 x9 x10 x11 x12 x13 x14 x15
      = Cert.Spec.combine (val_main_v26 (F := Ideal) x0 x2) x12 x13 x14 x15 (val_main_v6 (F := Ideal) x4 x9)
          (val_main_v19 (F := Ideal) x0 x4 x5 x9 x10 x11) := by
  funext i
  rw [val_main_v39_apply, val_main_v34_apply, val_main_v33_apply, val_main_v32_apply, val_main_v27_apply,
    val_main_v31_apply, val_main_v28_apply, val_main_v30_apply, val_main_v29_apply,
    val_main_v38_apply, val_main_v35_apply, val_main_v37_apply, val_main_v36_apply]
  have e1 : ∀ k : Fin 256, lidx_main_v28 i k = ix2 (i 0) k := fun k => funext fun a => by
    match a with | ⟨0, _⟩ => rfl | ⟨1, _⟩ => rfl
  have e2 : ∀ k : Fin 256, ridx_main_v28 i k = ix2 k (i 1) := fun k => funext fun a => by
    match a with | ⟨0, _⟩ => rfl | ⟨1, _⟩ => rfl
  have e3 : ∀ k : Fin 256, lidx_main_v35 i k = ix2 (i 0) k := fun k => funext fun a => by
    match a with | ⟨0, _⟩ => rfl | ⟨1, _⟩ => rfl
  have e4 : ∀ k : Fin 256, ridx_main_v35 i k = ix2 k (i 1) := fun k => funext fun a => by
    match a with | ⟨0, _⟩ => rfl | ⟨1, _⟩ => rfl
  have e5 : idx_main_v29 (idx_main_v30 i) = ix1 (i 1) := funext fun a => by
    match a with | ⟨0, _⟩ => rfl
  have e6 : idx_main_v36 (idx_main_v37 i) = ix1 (i 1) := funext fun a => by
    match a with | ⟨0, _⟩ => rfl
  have e7 : idx_main_v27 (idx_main_v32 i) = ix1 (i 0) := funext fun a => by
    match a with | ⟨0, _⟩ => rfl
  simp only [e1, e2, e3, e4, e5, e6, e7]
  rfl

end Cert.ReferenceIdeal.RefSpec

end
-- ==== Proof.Bridge.lean ====
/-
  Both programs end at one and the same array.

  `score` is that array as a function of the eleven arguments the programs read: `Spec.combine` of the valid nodes'
  embedding rows, the second and third weight matrices and biases, the nodes' degrees, and the neighbour sums of the
  projected embeddings `Spec.affine X W_w b_w`.

  The kernel program: its result buffer holds what the second region's last write-back left; that is `Spec.combine` of
  the seven buffers the region found (Tiles1); those are the host operations' values (Glue) of the arguments and of
  the first region's result, which is `Spec.affine` of the three buffers it found (Tiles0), themselves the embeddings,
  the first weight matrix and the first bias as launched.

  The reference program: its last stage is `Spec.combine` of its gathered rows, scattered degree and scattered neighbour
  sum (RefSpec), and those three are, operation for operation, the kernel program's host chains applied to the same
  arguments and to its own projected embeddings, which are `Spec.affine` as well.
-/
import proofs.«138775_j44899588112477_1_alg».proof.Proof.Tiles0
import proofs.«138775_j44899588112477_1_alg».proof.Proof.Tiles1
import proofs.«138775_j44899588112477_1_alg».proof.Proof.Glue
import proofs.«138775_j44899588112477_1_alg».proof.Proof.RefSpec

set_option maxRecDepth 16384

noncomputable section

namespace Cert.Bridge

open Idealize.ShloMosaic Idealize.ShloMosaic.TcCoe Idealize.SL Idealize.SL.Sem

/-- The array both programs end at, as a function of the arguments they read. -/
def score (x0 : (⟨Cert.KernelIdeal.S100000x256, .f32⟩ : BufTy).Contents (Elt Ideal)) (x2 : (⟨Cert.KernelIdeal.S50000, .i32⟩ : BufTy).Contents (Elt Ideal))
    (x4 x5 : (⟨Cert.KernelIdeal.S1048576, .i32⟩ : BufTy).Contents (Elt Ideal)) (x9 : (⟨Cert.KernelIdeal.S1048576, .f32⟩ : BufTy).Contents (Elt Ideal))
    (x10 : (⟨Cert.KernelIdeal.S256x256, .f32⟩ : BufTy).Contents (Elt Ideal)) (x11 : (⟨Cert.KernelIdeal.S256, .f32⟩ : BufTy).Contents (Elt Ideal))
    (x12 : (⟨Cert.KernelIdeal.S256x256, .f32⟩ : BufTy).Contents (Elt Ideal)) (x13 : (⟨Cert.KernelIdeal.S256, .f32⟩ : BufTy).Contents (Elt Ideal))
    (x14 : (⟨Cert.KernelIdeal.S256x256, .f32⟩ : BufTy).Contents (Elt Ideal)) (x15 : (⟨Cert.KernelIdeal.S256, .f32⟩ : BufTy).Contents (Elt Ideal)) :
    (⟨Cert.KernelIdeal.S50000x256, .f32⟩ : BufTy).Contents (Elt Ideal) :=
  Cert.Spec.combine (Cert.KernelIdeal.Glue.validRows x0 x2) x12 x13 x14 x15 (Cert.KernelIdeal.Glue.degree x4 x9)
    (Cert.KernelIdeal.Glue.neighbourSum (Cert.Spec.affine x0 x10 x11) x4 x5 x9)

section Kernel

open Cert.KernelIdeal Cert.KernelIdeal.Gen

variable (m : (ℓ : Loc nD τ sig) → Buf (Elt Ideal) ℓ) (ρ : Dev nD → PrngReg)

/-- What the first region leaves in its result buffer: the projected embeddings of the launch arguments. -/
theorem projected_value (c : Dev nD) :
    W2 m ρ c (Proc.devRef .tc main_v1) = Cert.Spec.affine (m ((c : Thread nD τ).loc main_arg0)) (m ((c : Thread nD τ).loc main_arg10)) (m ((c : Thread nD τ).loc main_arg11)) := by
  have hb : Tiles0.biasRow (V1 m ρ) c = (m ((c : Thread nD τ).loc main_arg11)) := by
    funext j
    unfold Tiles0.biasRow
    rw [Glue.first_bias]
    exact Glue.row_of_reshape _ j
  rw [Glue.mid_proj, Tiles0.result_eq (V1 m ρ) c]
  unfold Tiles0.projected
  rw [hb, Glue.first_emb, Glue.first_weight]

/-- The kernel program's result buffer at the last boundary is `score` of the launch arguments. -/
theorem kernel_value (c : Dev nD) :
    W4 m ρ c (Proc.devRef .tc main_v28) = score (m ((c : Thread nD τ).loc main_arg0)) (m ((c : Thread nD τ).loc main_arg2)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have hb1 : Tiles1.rowOf (V3 m ρ c main_v25) = (m ((c : Thread nD τ).loc main_arg13)) := by
    funext j
    unfold Tiles1.rowOf
    rw [Glue.second_b1, Glue.mid_arg13]
    exact Glue.row_of_reshape _ j
  have hb2 : Tiles1.rowOf (V3 m ρ c main_v26) = (m ((c : Thread nD τ).loc main_arg15)) := by
    funext j
    unfold Tiles1.rowOf
    rw [Glue.second_b2, Glue.mid_arg15]
    exact Glue.row_of_reshape _ j
  have hd : Tiles1.colOf (V3 m ρ c main_v27) = Glue.degree (m ((c : Thread nD τ).loc main_arg4)) (m ((c : Thread nD τ).loc main_arg9)) := by
    funext j
    unfold Tiles1.colOf
    rw [Glue.second_deg, Glue.mid_arg4, Glue.mid_arg9]
    exact Glue.col_of_reshape _ j
  have hx : V3 m ρ c main_v24 = Glue.validRows (m ((c : Thread nD τ).loc main_arg0)) (m ((c : Thread nD τ).loc main_arg2)) := by
    rw [Glue.second_rows, Glue.mid_arg0, Glue.mid_arg2]
  have hw1 : V3 m ρ c main_arg12 = (m ((c : Thread nD τ).loc main_arg12)) := by rw [Glue.second_w1, Glue.mid_arg12]
  have hw2 : V3 m ρ c main_arg14 = (m ((c : Thread nD τ).loc main_arg14)) := by rw [Glue.second_w2, Glue.mid_arg14]
  have ha : V3 m ρ c main_v17 = Glue.neighbourSum (Cert.Spec.affine (m ((c : Thread nD τ).loc main_arg0)) (m ((c : Thread nD τ).loc main_arg10)) (m ((c : Thread nD τ).loc main_arg11))) (m ((c : Thread nD τ).loc main_arg4)) (m ((c : Thread nD τ).loc main_arg5)) (m ((c : Thread nD τ).loc main_arg9)) := by
    rw [Glue.second_aggr, projected_value, Glue.mid_arg4, Glue.mid_arg5, Glue.mid_arg9]
  refine (W4_arr m ρ c 7).trans ?_
  rw [Tiles1.result_eq (V3 m ρ) c]
  unfold Tiles1.scored score
  rw [hx, hw1, hb1, hw2, hb2, hd, ha]

end Kernel

section Reference

open Cert.ReferenceIdeal Cert.ReferenceIdeal.Read

/-- The reference program's last stage is `score` of its arguments. -/
theorem reference_value (x0 : (⟨Cert.ReferenceIdeal.S100000x256, .f32⟩ : BufTy).Contents (Elt Ideal)) (x2 : (⟨Cert.ReferenceIdeal.S50000, .i32⟩ : BufTy).Contents (Elt Ideal))
    (x4 x5 : (⟨Cert.ReferenceIdeal.S1048576, .i32⟩ : BufTy).Contents (Elt Ideal)) (x9 : (⟨Cert.ReferenceIdeal.S1048576, .f32⟩ : BufTy).Contents (Elt Ideal))
    (x10 : (⟨Cert.ReferenceIdeal.S256x256, .f32⟩ : BufTy).Contents (Elt Ideal)) (x11 : (⟨Cert.ReferenceIdeal.S256, .f32⟩ : BufTy).Contents (Elt Ideal))
    (x12 : (⟨Cert.ReferenceIdeal.S256x256, .f32⟩ : BufTy).Contents (Elt Ideal)) (x13 : (⟨Cert.ReferenceIdeal.S256, .f32⟩ : BufTy).Contents (Elt Ideal))
    (x14 : (⟨Cert.ReferenceIdeal.S256x256, .f32⟩ : BufTy).Contents (Elt Ideal)) (x15 : (⟨Cert.ReferenceIdeal.S256, .f32⟩ : BufTy).Contents (Elt Ideal)) :
    val_main_v39 (F := Ideal) x0 x2 x4 x5 x9 x10 x11 x12 x13 x14 x15 = score x0 x2 x4 x5 x9 x10 x11 x12 x13 x14 x15 := by
  have h26 : val_main_v26 (F := Ideal) x0 x2 = Cert.KernelIdeal.Glue.validRows x0 x2 := rfl
  have h6 : val_main_v6 (F := Ideal) x4 x9 = Cert.KernelIdeal.Glue.degree x4 x9 := rfl
  have h19 : val_main_v19 (F := Ideal) x0 x4 x5 x9 x10 x11
      = Cert.KernelIdeal.Glue.neighbourSum (val_main_v3 (F := Ideal) x0 x10 x11) x4 x5 x9 := rfl
  rw [RefSpec.score_eq, h26, h6, h19, RefSpec.proj_eq]
  rfl

end Reference

end Cert.Bridge

end
-- ==== Proof.lean ====
/-
  The certificate of a message-passing layer over communities.

  The layer: project every community embedding, `acw = X · W_w + b_w` (`100000 × 256`); for each of the `50000` valid
  nodes sum the weights of its incoming edges (`deg`) and sum, over its incoming edges, the edge weight times the
  projected row of the edge's source (`aggr`); take the valid nodes' own embedding rows `nce`; and return
  `(deg · (nce · W1 + b1) + aggr) + (nce · W2 + b2)`.

  The kernel program computes the projection in one tiled region (`5000` rows per grid point), the edge sums and the
  row gather by host operations, and the final expression in a second tiled region (`2000` rows per grid point); the
  reference computes everything by whole-array host operations. Read on the extended reals, where a change of float
  format is the identity and a matrix product is a plain sum, the two compute entry by entry the same expression in
  the same grouping, over the same gather and scatter-add operations applied to equal values. No cancellation or
  distributivity is used, so the equality needs no finiteness of the inputs; the precondition is only carried along.

  * the three frames: the two kernel programs' frames are the generated ones; the reference's is its generated run with
    the result dropped;
  * `preserves`: the idealization rewrote no operation, the statement is `True`;
  * `algebraic`: both runs end with the result at `Bridge.score` of the launch arguments — the kernel program's by
    `LastBoundary.run` (the run with its final memory named) and `Bridge.kernel_value`, the reference's by its generated run,
    `Bridge.reference_value`, and the agreement of the two memories on the arguments.
-/
import proofs.«138775_j44899588112477_1_alg».proof.Defs
import proofs.«138775_j44899588112477_1_alg».proof.Proof.Gen.Kernel
import proofs.«138775_j44899588112477_1_alg».proof.Proof.Gen.Kernel.Frame
import proofs.«138775_j44899588112477_1_alg».proof.Proof.Gen.KernelIdeal
import proofs.«138775_j44899588112477_1_alg».proof.Proof.Gen.KernelIdeal.Frame
import proofs.«138775_j44899588112477_1_alg».proof.Proof.Gen.ReferenceIdeal
import proofs.«138775_j44899588112477_1_alg».proof.Proof.Gen.Pre_finite_inputs
import proofs.«138775_j44899588112477_1_alg».proof.Proof.Gen.ReferenceIdeal.Run
import proofs.«138775_j44899588112477_1_alg».proof.Proof.Gen.ReferenceIdeal.Read
import proofs.«138775_j44899588112477_1_alg».proof.Proof.LastBoundary
import proofs.«138775_j44899588112477_1_alg».proof.Proof.Bridge

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the result at `Bridge.score` of those arguments. -/
theorem algebraic : Cert.algebraic_KernelIdeal_ReferenceIdeal := by
  intro m ρ m' ρ' _ hagree
  refine ⟨fun c => Cert.Bridge.score (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(Cert.KernelIdeal.LastBoundary.result_at m ρ r h c).trans (Cert.Bridge.kernel_value m ρ c),
        Cert.KernelIdeal.LastBoundary.args_at m ρ r h c⟩)
      (Cert.KernelIdeal.LastBoundary.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq, Cert.Bridge.reference_value,
      (hagree c).1, (hagree c).2.2.1, (hagree c).2.2.2.2.1, (hagree c).2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
